-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S64x8 : Shape := ⟨2, ![64, 8]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S64x8 : S_.BroadcastsInDim S64x8 (![] : Fin 0 → Fin S64x8.rank)
  reducesTo_S64x8_S_d0_1 : S64x8.ReducesTo [0, 1] S_

variable [Facts]

def fn {F : FTy → Type} [FloatOps F] (main_arg0 : FVec F S4194304x8 .f32) (main_arg1 : FVec F S4194304x8 .f32) (main_arg2 : FVec F S64x8 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S4194304x8 .f32 := Host.absf main_arg1
  let main_cst_0 : FVec F S_ .f32 := constant S_ .f32 0x7F800000#32
  let main_v5 : FVec F S4194304x8 .f32 := broadcastInDim S4194304x8 ![] bcast_S_S4194304x8 main_cst_0
  let main_v6 : IVec S4194304x8 1 := cmpf .olt main_v4 main_v5
  let main_c_1 : IVec S_ 1 := constantI S_ 1 1#1
  let main_v7 : IVec S_ 1 := (fun x v => Host.reduce IntOp.andi x v reducesTo_S4194304x8_S_d0_1 h_S_) main_v6 main_c_1
  let main_v8 : IVec S_ 1 := andi main_v3 main_v7
  let main_v9 : FVec F S64x8 .f32 := Host.absf main_arg2
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_c_3 : IVec S_ 1 := constantI S_ 1 1#1
  let main_v12 : IVec S_ 1 := (fun x v => Host.reduce IntOp.andi x v reducesTo_S64x8_S_d0_1 h_S_) main_v11 main_c_3
  let main_v13 : IVec S_ 1 := andi main_v8 main_v12
  main_v13
-- ==== Kernel.lean ====
abbrev S4194304x8 : Shape := ⟨2, ![4194304, 8]⟩
abbrev S64x8 : Shape := ⟨2, ![64, 8]⟩
abbrev S8x8x8 : Shape := ⟨3, ![8, 8, 8]⟩
abbrev S65536x8 : Shape := ⟨2, ![65536, 8]⟩
abbrev S1x8x8 : Shape := ⟨3, ![1, 8, 8]⟩
abbrev S8x8 : Shape := ⟨2, ![8, 8]⟩
abbrev S65536x1 : Shape := ⟨2, ![65536, 1]⟩

abbrev nBuf : Space → Nat
  | .hbm => 5
  | .vmem => 7
  | .smem => 0
  | _ => 0

abbrev bufTy : (tb : Table) → Fin (tcTables nBuf tb) → BufTy
  | .hbm, ⟨0, _⟩ => ⟨S4194304x8, .f32⟩
  | .hbm, ⟨1, _⟩ => ⟨S4194304x8, .f32⟩
  | .hbm, ⟨2, _⟩ => ⟨S64x8, .f32⟩
  | .hbm, ⟨3, _⟩ => ⟨S8x8x8, .f32⟩
  | .hbm, ⟨4, _⟩ => ⟨S4194304x8, .f32⟩
  | .local _ .vmem, ⟨0, _⟩ => ⟨S65536x8, .f32⟩
  | .local _ .vmem, ⟨1, _⟩ => ⟨S65536x8, .f32⟩
  | .local _ .vmem, ⟨2, _⟩ => ⟨S65536x8, .f32⟩
  | .local _ .vmem, ⟨3, _⟩ => ⟨S65536x8, .f32⟩
  | .local _ .vmem, ⟨4, _⟩ => ⟨S8x8x8, .f32⟩
  | .local _ .vmem, ⟨5, _⟩ => ⟨S65536x8, .f32⟩
  | .local _ .vmem, ⟨6, _⟩ => ⟨S65536x8, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S65536x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x8_S8x8x8 : S64x8.ShapeCasts S8x8x8
  inb_S65536x8_S65536x8_0_0 : ∀ a, (![0, 0] : Fin 2 → Nat) a + S65536x8.size a ≤ S65536x8.size a
  h_S65536x8 : 0 < S65536x8.numel
  inb_S8x8x8_S1x8x8_0_0_0 : ∀ a, (![0, 0, 0] : Fin 3 → Nat) a + S1x8x8.size a ≤ S8x8x8.size a
  h_S1x8x8 : 0 < S1x8x8.numel
  shapeCasts_S1x8x8_S8x8 : S1x8x8.ShapeCasts S8x8
  slices_S65536x8_o0_0_S65536x1 : S65536x8.Slices ![0, 0] S65536x1
  broadcasts_S65536x1_S65536x8 : S65536x1.Broadcasts S65536x8
  inb_S8x8x8_S1x8x8_1_0_0 : ∀ a, (![1, 0, 0] : Fin 3 → Nat) a + S1x8x8.size a ≤ S8x8x8.size a
  slices_S65536x8_o0_1_S65536x1 : S65536x8.Slices ![0, 1] S65536x1
  inb_S8x8x8_S1x8x8_2_0_0 : ∀ a, (![2, 0, 0] : Fin 3 → Nat) a + S1x8x8.size a ≤ S8x8x8.size a
  slices_S65536x8_o0_2_S65536x1 : S65536x8.Slices ![0, 2] S65536x1
  inb_S8x8x8_S1x8x8_3_0_0 : ∀ a, (![3, 0, 0] : Fin 3 → Nat) a + S1x8x8.size a ≤ S8x8x8.size a
  slices_S65536x8_o0_3_S65536x1 : S65536x8.Slices ![0, 3] S65536x1
  inb_S8x8x8_S1x8x8_4_0_0 : ∀ a, (![4, 0, 0] : Fin 3 → Nat) a + S1x8x8.size a ≤ S8x8x8.size a
  slices_S65536x8_o0_4_S65536x1 : S65536x8.Slices ![0, 4] S65536x1
  inb_S8x8x8_S1x8x8_5_0_0 : ∀ a, (![5, 0, 0] : Fin 3 → Nat) a + S1x8x8.size a ≤ S8x8x8.size a
  slices_S65536x8_o0_5_S65536x1 : S65536x8.Slices ![0, 5] S65536x1
  inb_S8x8x8_S1x8x8_6_0_0 : ∀ a, (![6, 0, 0] : Fin 3 → Nat) a + S1x8x8.size a ≤ S8x8x8.size a
  slices_S65536x8_o0_6_S65536x1 : S65536x8.Slices ![0, 6] S65536x1
  inb_S8x8x8_S1x8x8_7_0_0 : ∀ a, (![7, 0, 0] : Fin 3 → Nat) a + S1x8x8.size a ≤ S8x8x8.size a
  slices_S65536x8_o0_7_S65536x1 : S65536x8.Slices ![0, 7] S65536x1
  dot_S65536x8_S8x8_S65536x8_1_0_0_1_n_n_wf : DotDims.WF S65536x8 S8x8 S65536x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x8.size a ≤ S4194304x8.size a
  hwx0_0 : ∀ i : grid0.Coords, EltTy.bits .f32 = 32 ∨ (Rect.block (s := S4194304x8) S65536x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536x8.size a ≤ S4194304x8.size a
  hwx0_1 : ∀ i : grid0.Coords, EltTy.bits .f32 = 32 ∨ (Rect.block (s := S4194304x8) S65536x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x8x8.size a ≤ S8x8x8.size a
  hwx0_2 : ∀ i : grid0.Coords, EltTy.bits .f32 = 32 ∨ (Rect.block (s := S8x8x8) S8x8x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S65536x8.size a ≤ S4194304x8.size a
  hwx0_3 : ∀ i : grid0.Coords, EltTy.bits .f32 = 32 ∨ (Rect.block (s := S4194304x8) S65536x8.size (cc0_transform_3 i) (hinb0_3 i)).WholeWords (EltTy.packing .f32)

variable [Facts₀]

def dot_S65536x8_S8x8_S65536x8_1_0_0_1_n_n : DotDims S65536x8 S8x8 S65536x8 where
  lhsContracting := [1]
  rhsContracting := [0]
  lhsNonContracting := [0]
  rhsNonContracting := [1]
  lhsBatch := []
  rhsBatch := []
  wf := dot_S65536x8_S8x8_S65536x8_1_0_0_1_n_n_wf

abbrev win0_0 : Pipeline.Window sig grid0 :=
  Pipeline.Window.ofSpec (Memref.whole main_arg0) S65536x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S65536x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x8x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S65536x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S64x8 : Shape := ⟨2, ![64, 8]⟩
abbrev S4194304x8x1 : Shape := ⟨3, ![4194304, 8, 1]⟩
abbrev S4194304x1x8 : Shape := ⟨3, ![4194304, 1, 8]⟩
abbrev S4194304x8x8 : Shape := ⟨3, ![4194304, 8, 8]⟩
abbrev S4194304x64 : Shape := ⟨2, ![4194304, 64]⟩

abbrev nBuf : Space → Nat
  | .hbm => 10
  | .vmem => 0
  | .smem => 0
  | _ => 0

abbrev bufTy : (tb : Table) → Fin (tcTables nBuf tb) → BufTy
  | .hbm, ⟨0, _⟩ => ⟨S4194304x8, .f32⟩
  | .hbm, ⟨1, _⟩ => ⟨S4194304x8, .f32⟩
  | .hbm, ⟨2, _⟩ => ⟨S64x8, .f32⟩
  | .hbm, ⟨3, _⟩ => ⟨S4194304x8x1, .f32⟩
  | .hbm, ⟨4, _⟩ => ⟨S4194304x1x8, .f32⟩
  | .hbm, ⟨5, _⟩ => ⟨S4194304x8x8, .f32⟩
  | .hbm, ⟨6, _⟩ => ⟨S4194304x8x8, .f32⟩
  | .hbm, ⟨7, _⟩ => ⟨S4194304x8x8, .f32⟩
  | .hbm, ⟨8, _⟩ => ⟨S4194304x64, .f32⟩
  | .hbm, ⟨9, _⟩ => ⟨S4194304x8, .f32⟩
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S4194304x8_S4194304x8x1_0_1 : S4194304x8.BroadcastsInDim S4194304x8x1 (![0, 1] : Fin 2 → Fin S4194304x8x1.rank)
  bcast_S4194304x8_S4194304x1x8_0_2 : S4194304x8.BroadcastsInDim S4194304x1x8 (![0, 2] : Fin 2 → Fin S4194304x1x8.rank)
  bcast_S4194304x8x1_S4194304x8x8_0_1_2 : S4194304x8x1.BroadcastsInDim S4194304x8x8 (![0, 1, 2] : Fin 3 → Fin S4194304x8x8.rank)
  bcast_S4194304x1x8_S4194304x8x8_0_1_2 : S4194304x1x8.BroadcastsInDim S4194304x8x8 (![0, 1, 2] : Fin 3 → Fin S4194304x8x8.rank)
  shapeCasts_S4194304x8x8_S4194304x64 : S4194304x8x8.ShapeCasts S4194304x64
  dot_S4194304x64_S64x8_S4194304x8_1_0_0_1_n_n_wf : DotDims.WF S4194304x64 S64x8 S4194304x8 [1] [0] [0] [1] [] []

variable [Facts₀]

def dot_S4194304x64_S64x8_S4194304x8_1_0_0_1_n_n : DotDims S4194304x64 S64x8 S4194304x8 where
  lhsContracting := [1]
  rhsContracting := [0]
  lhsNonContracting := [0]
  rhsNonContracting := [1]
  lhsBatch := []
  rhsBatch := []
  wf := dot_S4194304x64_S64x8_S4194304x8_1_0_0_1_n_n_wf

class Facts : Prop extends Facts₀ where

variable [Facts]
-- ==== Proof.CliffordLaw.lean ====
/-
  The algebra that joins the two programs, on the extended reals, with no program in sight.

  One output entry of the geometric product is computed in two arrangements.  The kernel keeps a running
  total that starts at zero and, for each of the eight components `p` of the left factor in turn, adds
  `a p` times the dot product of the right factor `b` with row block `p` of the structure table:
      ((0 + a 0 * Σ_j b j * M 0 j) + a 1 * Σ_j b j * M 1 j) + … + a 7 * Σ_j b j * M 7 j.
  The reference forms all sixty-four products `a p * b j` first, lays them out row-major at position
  `8 p + j`, and contracts that vector with the table flattened the same way:
      Σ_{k < 64} (a (k / 8) * b (k % 8)) * M k.
  Passing from one to the other moves the factor `a p` across the inner sum, which is distributivity; on the
  extended reals that law fails at infinities, so it is stated for entries that are real numbers, and proved
  in ℝ after pushing the coercion outwards.
-/
import Idealize.ShloMosaic.PureOps.Ideal
import Mathlib.Algebra.BigOperators.Fin

noncomputable section

namespace Cert.Clifford

open scoped BigOperators

/-- Row-major position of entry `(p, j)` of an 8 × 8 table flattened to length 64. -/
def flat (p j : Fin 8) : Fin 64 := ⟨8 * p.val + j.val, by have := p.isLt; have := j.isLt; omega⟩

/-- The row of a flattened position. -/
def rowOf (k : Fin 64) : Fin 8 := ⟨k.val / 8, by have := k.isLt; omega⟩

/-- The column of a flattened position. -/
def colOf (k : Fin 64) : Fin 8 := ⟨k.val % 8, by omega⟩

theorem rowOf_flat (p j : Fin 8) : rowOf (flat p j) = p :=
  Fin.ext (by have := j.isLt; show (8 * p.val + j.val) / 8 = p.val; omega)

theorem colOf_flat (p j : Fin 8) : colOf (flat p j) = j :=
  Fin.ext (by have := j.isLt; show (8 * p.val + j.val) % 8 = j.val; omega)

theorem flat_rowOf_colOf (k : Fin 64) : flat (rowOf k) (colOf k) = k :=
  Fin.ext (by show 8 * (k.val / 8) + k.val % 8 = k.val; omega)

/-- Pairs (row, column) and flattened positions correspond one to one. -/
def flatEquiv : Fin 8 × Fin 8 ≃ Fin 64 where
  toFun x := flat x.1 x.2
  invFun k := (rowOf k, colOf k)
  left_inv x := Prod.ext (rowOf_flat x.1 x.2) (colOf_flat x.1 x.2)
  right_inv k := flat_rowOf_colOf k

/-- A sum over the sixty-four flattened positions is the double sum over rows and columns. -/
theorem sum_flat {M : Type} [AddCommMonoid M] (f : Fin 64 → M) :
    ∑ k, f k = ∑ p : Fin 8, ∑ j : Fin 8, f (flat p j) := by
  rw [← Equiv.sum_comp flatEquiv f, Fintype.sum_prod_type]
  rfl

/-- The coercion of reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's arrangement: a total started at zero, to which component `p` of the left factor times the dot
    product of the right factor with row block `p` of the table is added, for `p = 0, …, 7` in that order. -/
def accum (a b : Fin 8 → EReal) (M : Fin 8 → Fin 8 → EReal) : EReal :=
  0 + a 0 * (∑ j, b j * M 0 j) + a 1 * (∑ j, b j * M 1 j) + a 2 * (∑ j, b j * M 2 j)
    + a 3 * (∑ j, b j * M 3 j) + a 4 * (∑ j, b j * M 4 j) + a 5 * (∑ j, b j * M 5 j)
    + a 6 * (∑ j, b j * M 6 j) + a 7 * (∑ j, b j * M 7 j)

/-- For real entries the running total is the double sum of the triple products (in ℝ, then coerced). -/
theorem accum_real (α β : Fin 8 → ℝ) (μ : Fin 8 → Fin 8 → ℝ) :
    accum (fun p => (α p : EReal)) (fun j => (β j : EReal)) (fun p j => (μ p j : EReal))
      = ((∑ p, ∑ j, α p * β j * μ p j : ℝ) : EReal) := by
  unfold accum
  simp only [← EReal.coe_mul, ← coe_sum, ← EReal.coe_add, ← EReal.coe_zero]
  refine congrArg _ ?_
  rw [Fin.sum_univ_eight (fun p => ∑ j, α p * β j * μ p j)]
  simp only [Finset.mul_sum, mul_assoc, zero_add]

/-- THE LAW.  For entries that are real numbers, the kernel's running total over row blocks of the table is the
    reference's contraction of the flattened outer product with the flattened table. -/
theorem accum_eq_sum (a b : Fin 8 → EReal) (M : Fin 64 → EReal)
    (ha : ∀ p, ∃ r : ℝ, a p = r) (hb : ∀ j, ∃ r : ℝ, b j = r) (hM : ∀ k, ∃ r : ℝ, M k = r) :
    accum a b (fun p j => M (flat p j)) = ∑ k : Fin 64, a (rowOf k) * b (colOf k) * M k := by
  choose α hα using ha
  choose β hβ using hb
  choose μ hμ using hM
  have ea : a = fun p => (α p : EReal) := funext hα
  have eb : b = fun j => (β j : EReal) := funext hβ
  have eM : M = fun k => (μ k : EReal) := funext hμ
  rw [ea, eb, eM]
  refine (accum_real α β (fun p j => μ (flat p j))).trans ?_
  simp only [← EReal.coe_mul]
  rw [← coe_sum]
  refine congrArg _ ?_
  rw [sum_flat (fun k => α (rowOf k) * β (colOf k) * μ k)]
  simp only [rowOf_flat, colOf_flat]

end Cert.Clifford

end
-- ==== Proof.BodyValue.lean ====
/-
  What one grid point stores, entry by entry.

  The body loads a block of 65536 rows of the left factors `a` and of the right factors `b` (eight components
  each) and, one after the other, the eight 8 × 8 row blocks of the structure table, which it holds as an
  8 × 8 × 8 array.  It starts a total at zero and, for `p = 0, …, 7`, adds column `p` of the `a` block, spread
  along the row, times the matrix product of the `b` block with row block `p` of the table.  Read at row `r` and
  column `c`, what it stores is therefore the running total of CliffordLaw.lean,
      `accum (fun p => a (r, p)) (fun j => b (r, j)) (fun p j => table (p, j, c))`:
  a column spread along a row reads the column's entry, a matrix product into a zero accumulator reads as the
  plain sum over the contracted axis, and row block `p` of the table viewed as an 8 × 8 matrix reads
  `table (p, j, c)` at `(j, c)`.
-/
import proofs.«115070_j85452669321821_1_alg».proof.Proof.Gen.KernelIdeal.Frame
import proofs.«115070_j85452669321821_1_alg».proof.Proof.CliffordLaw
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Clifford

/-- Both spellings of the zero offsets of a two-axis block. -/
theorem zero_offsets : (![0, 0] : Fin 2 → Nat) = fun _ => 0 := funext fun a => by fin_cases a <;> rfl

/-! ## A column of the left block, spread along its row -/

/-- Column `p` of a 65536 × 8 block, cut out as a 65536 × 1 slice and spread over the eight columns, reads the
    block's entry in column `p` of the same row, whatever the column it is read at. -/
theorem column_spread_apply (x0 : FVec Ideal S65536x8 .f32) (p : Nat) (hp : p < 8)
    (hs : S65536x8.Slices ![0, p] S65536x1) (r : Fin 65536) (c : Fin 8) :
    broadcastTo S65536x8 (extractStridedSlice S65536x1 ![0, p] x0 hs) broadcasts_S65536x1_S65536x8 (ix2 r c)
      = x0 (ix2 r ⟨p, hp⟩) := by
  refine (broadcastTo_apply _ broadcasts_S65536x1_S65536x8 (ix2 r c) (ix2 r (0 : Fin 1)) (fun a => ?_)).trans ?_
  · match a with
    | ⟨0, _⟩ => show r.val = if (65536 : Nat) = 1 then 0 else r.val; rw [if_neg (by decide)]
    | ⟨1, _⟩ => show 0 = if (1 : Nat) = 1 then 0 else c.val; rw [if_pos rfl]
  · refine extractStridedSlice_apply _ x0 hs (ix2 r (0 : Fin 1)) (ix2 r ⟨p, hp⟩) (fun a => ?_)
    match a with
    | ⟨0, _⟩ => show r.val = 0 + r.val; omega
    | ⟨1, _⟩ => show p = p + 0; omega

/-! ## The matrix product of the right block with one row block of the table -/

theorem lhs_row (i : S65536x8.Idx) (q : dot_S65536x8_S8x8_S65536x8_1_0_0_1_n_n.contr.Idx) :
    (dot_S65536x8_S8x8_S65536x8_1_0_0_1_n_n.lhsIdx i q 0).val = (i 0).val := by
  unfold DotDims.lhsIdx
  rw [dif_neg (show ¬(0 : Fin S65536x8.rank) ∈ dot_S65536x8_S8x8_S65536x8_1_0_0_1_n_n.lhsBatch by decide), dif_pos (show (0 : Fin S65536x8.rank) ∈ dot_S65536x8_S8x8_S65536x8_1_0_0_1_n_n.lhsNonContracting by decide)]
  rfl

theorem lhs_contracted (i : S65536x8.Idx) (q : dot_S65536x8_S8x8_S65536x8_1_0_0_1_n_n.contr.Idx) :
    (dot_S65536x8_S8x8_S65536x8_1_0_0_1_n_n.lhsIdx i q 1).val = (q ⟨0, by decide⟩).val :=
  dot_S65536x8_S8x8_S65536x8_1_0_0_1_n_n.lhsIdx_val_of_single rfl i q

theorem rhs_contracted (i : S65536x8.Idx) (q : dot_S65536x8_S8x8_S65536x8_1_0_0_1_n_n.contr.Idx) :
    (dot_S65536x8_S8x8_S65536x8_1_0_0_1_n_n.rhsIdx i q 0).val = (q ⟨0, by decide⟩).val :=
  dot_S65536x8_S8x8_S65536x8_1_0_0_1_n_n.rhsIdx_val_of_single rfl i q

theorem rhs_column (i : S65536x8.Idx) (q : dot_S65536x8_S8x8_S65536x8_1_0_0_1_n_n.contr.Idx) :
    (dot_S65536x8_S8x8_S65536x8_1_0_0_1_n_n.rhsIdx i q 1).val = (i 1).val := by
  unfold DotDims.rhsIdx
  rw [dif_neg (show ¬(1 : Fin S8x8.rank) ∈ dot_S65536x8_S8x8_S65536x8_1_0_0_1_n_n.rhsBatch by decide), dif_pos (show (1 : Fin S8x8.rank) ∈ dot_S65536x8_S8x8_S65536x8_1_0_0_1_n_n.rhsNonContracting by decide)]
  rfl

/-- The product of a 65536 × 8 block with an 8 × 8 matrix, accumulated into zero, read at `(r, c)`: the sum over
    the contracted axis `j` of the block at `(r, j)` times the matrix at `(j, c)`. -/
theorem product_apply (x1 : FVec Ideal S65536x8 .f32) (w : FVec Ideal S8x8 .f32) (r : Fin 65536) (c : Fin 8) :
    matmul dot_S65536x8_S8x8_S65536x8_1_0_0_1_n_n none x1 w (constant S65536x8 .f32 0x00000000#32) (ix2 r c)
      = ∑ j : Fin 8, x1 (ix2 r j) * w (ix2 j c) := by
  simp only [matmul]
  rw [Ideal.matmul_constant_zero_apply, ← Equiv.sum_comp (ValueIdx.contrEquiv1 dot_S65536x8_S8x8_S65536x8_1_0_0_1_n_n 8 rfl rfl).symm]
  refine Finset.sum_congr rfl fun k _ => ?_
  have hk := ValueIdx.contrEquiv1_symm_val dot_S65536x8_S8x8_S65536x8_1_0_0_1_n_n 8 rfl rfl k
  have el : dot_S65536x8_S8x8_S65536x8_1_0_0_1_n_n.lhsIdx (ix2 r c) ((ValueIdx.contrEquiv1 dot_S65536x8_S8x8_S65536x8_1_0_0_1_n_n 8 rfl rfl).symm k) = ix2 r k := funext fun a => Fin.ext (by
    match a with
    | ⟨0, _⟩ => exact lhs_row _ _
    | ⟨1, _⟩ => exact (lhs_contracted _ _).trans hk)
  have er : dot_S65536x8_S8x8_S65536x8_1_0_0_1_n_n.rhsIdx (ix2 r c) ((ValueIdx.contrEquiv1 dot_S65536x8_S8x8_S65536x8_1_0_0_1_n_n 8 rfl rfl).symm k) = ix2 k c := funext fun a => Fin.ext (by
    match a with
    | ⟨0, _⟩ => exact (rhs_contracted _ _).trans hk
    | ⟨1, _⟩ => exact rhs_column _ _)
  rw [el, er]

/-- Row block `p` of the 8 × 8 × 8 table, loaded as a 1 × 8 × 8 slab and viewed as an 8 × 8 matrix, reads the
    table's entry `(p, j, c)` at `(j, c)`. -/
theorem row_block_apply (x2 : Vec Ideal S8x8x8 .f32) (p : Nat) (hp : p < 8)
    (inb : ∀ a, (![p, 0, 0] : Fin 3 → Nat) a + S1x8x8.size a ≤ S8x8x8.size a) (j c : Fin 8) :
    shapeCast S8x8 (View.ld x2 (Rect.unit (s := S8x8x8) ![p, 0, 0] S1x8x8.size inb)) shapeCasts_S1x8x8_S8x8 (ix2 j c)
      = x2 (ix3 ⟨p, hp⟩ j c) := by
  refine (shapeCast_apply _ shapeCasts_S1x8x8_S8x8 (ix2 j c) (ix3 (0 : Fin 1) j c) ?_).trans ?_
  · rewrite [Shape.rowMajor_val_three, Shape.rowMajor_val_two]
    show (0 * 8 + j.val) * 8 + c.val = j.val * 8 + c.val
    omega
  · show x2 _ = x2 _
    refine congrArg x2 (funext fun a => Fin.ext ?_)
    match a with
    | ⟨0, _⟩ => show p + 1 * 0 = p; omega
    | ⟨1, _⟩ => show 0 + 1 * j.val = j.val; omega
    | ⟨2, _⟩ => show 0 + 1 * c.val = c.val; omega

/-- One summand of the running total, read at `(r, c)`: entry `(r, p)` of the left block times the dot product of
    row `r` of the right block with column `c` of row block `p` of the table. -/
theorem summand_apply (x0 x1 : FVec Ideal S65536x8 .f32) (x2 : Vec Ideal S8x8x8 .f32) (p : Nat) (hp : p < 8)
    (hs : S65536x8.Slices ![0, p] S65536x1)
    (inb : ∀ a, (![p, 0, 0] : Fin 3 → Nat) a + S1x8x8.size a ≤ S8x8x8.size a) (r : Fin 65536) (c : Fin 8) :
    mulf (broadcastTo S65536x8 (extractStridedSlice S65536x1 ![0, p] x0 hs) broadcasts_S65536x1_S65536x8)
        (matmul dot_S65536x8_S8x8_S65536x8_1_0_0_1_n_n none x1
          (shapeCast S8x8 (View.ld x2 (Rect.unit (s := S8x8x8) ![p, 0, 0] S1x8x8.size inb)) shapeCasts_S1x8x8_S8x8 : FVec Ideal S8x8 .f32)
          (constant S65536x8 .f32 0x00000000#32)) (ix2 r c)
      = x0 (ix2 r ⟨p, hp⟩) * ∑ j : Fin 8, x1 (ix2 r j) * x2 (ix3 ⟨p, hp⟩ j c) := by
  show _ * _ = _
  rw [column_spread_apply x0 p hp hs r c, product_apply]
  refine congrArg _ (Finset.sum_congr rfl fun j _ => ?_)
  rw [row_block_apply x2 p hp inb j c]

/-! ## What the body stores -/

/-- THE STORED BLOCK, read at row `r` and column `c`: the running total over the eight row blocks of the table, of
    row `r` of the two loaded factor blocks. -/
theorem stored_apply (x0 x1 : Vec Ideal S65536x8 .f32) (x2 : Vec Ideal S8x8x8 .f32) (r : Fin 65536) (c : Fin 8) :
    out0_3 x0 x1 x2 (ix2 r c)
      = accum (fun p => x0 (ix2 r p)) (fun j => x1 (ix2 r j)) (fun p j => x2 (ix3 p j c)) := by
  unfold out0_3
  rw [View.canon_unit_zero zero_offsets]
  simp only [View.ld_unit_zero (S := S65536x8) zero_offsets]
  unfold k0_pay1 k0_pay2 k0_pay3
  dsimp only
  simp only [addf_apply]
  rw [summand_apply x0 x1 x2 0 (by decide) _ _ r c, summand_apply x0 x1 x2 1 (by decide) _ _ r c,
    summand_apply x0 x1 x2 2 (by decide) _ _ r c, summand_apply x0 x1 x2 3 (by decide) _ _ r c,
    summand_apply x0 x1 x2 4 (by decide) _ _ r c, summand_apply x0 x1 x2 5 (by decide) _ _ r c,
    summand_apply x0 x1 x2 6 (by decide) _ _ r c, summand_apply x0 x1 x2 7 (by decide) _ _ r c,
    show (broadcast S65536x8 (FloatOps.ofBits (F := Ideal) FTy.f32 0x00000000#32)) (ix2 r c) = (0 : EReal) from
      Ideal.ofBits_zero_f32]
  rfl

end Cert.KernelIdeal.Body

end
-- ==== Proof.ProductSpec.lean ====
/-
  The geometric product of two arrays of multivectors, as one function of the three argument arrays, in the
  two arrangements the programs compute it in.

  `a` and `b` hold 4194304 multivectors of eight components each; the table `M` has a row for each of the
  sixty-four pairs (component of `a`, component of `b`), flattened row-major, and a column for each component
  of the result.  Entry `(n, c)` of the result is
    * `total`       — the kernel's running total over the eight row blocks of the table, and
    * `contraction` — the reference's sum over all sixty-four pairs,
  and the two agree when every entry of the three arrays is a real number (CliffordLaw.lean's law at row `n` of
  the factors and column `c` of the table).
-/
import proofs.«115070_j85452669321821_1_alg».proof.Proof.CliffordLaw
import Idealize.ShloMosaic.Lib.ValueIdx

noncomputable section

namespace Cert.Clifford

open Idealize.ShloMosaic Idealize.ShloMosaic.ValueIdx

/-- An array of 4194304 multivectors, eight components each. -/
abbrev Factors : Type := (⟨2, ![4194304, 8]⟩ : Shape).Idx → EReal

/-- The structure table: a row per pair of components, flattened row-major, a column per result component. -/
abbrev Table : Type := (⟨2, ![64, 8]⟩ : Shape).Idx → EReal

/-- Entry `(n, c)` in the reference's arrangement: the flattened outer product of multivectors `n` contracted with
    column `c` of the table. -/
def contraction (a b : Factors) (M : Table) (n : Fin 4194304) (c : Fin 8) : EReal :=
  ∑ k : Fin 64, a (ix2 n (rowOf k)) * b (ix2 n (colOf k)) * M (ix2 k c)

/-- Entry `(n, c)` in the kernel's arrangement: the running total over the components `p` of the left multivector of
    that component times the dot product of the right multivector with rows `8 p, …, 8 p + 7` of column `c`. -/
def total (a b : Factors) (M : Table) (n : Fin 4194304) (c : Fin 8) : EReal :=
  accum (fun p => a (ix2 n p)) (fun j => b (ix2 n j)) (fun p j => M (ix2 (flat p j) c))

/-- The result array in the kernel's arrangement. -/
def product (a b : Factors) (M : Table) : Factors := fun i => total a b M (i 0) (i 1)

/-- For real entries the two arrangements give the same entry. -/
theorem total_eq_contraction (a b : Factors) (M : Table)
    (ha : ∀ i, ∃ r : ℝ, a i = r) (hb : ∀ i, ∃ r : ℝ, b i = r) (hM : ∀ i, ∃ r : ℝ, M i = r)
    (n : Fin 4194304) (c : Fin 8) : total a b M n c = contraction a b M n c :=
  accum_eq_sum (fun p => a (ix2 n p)) (fun j => b (ix2 n j)) (fun k => M (ix2 k c))
    (fun p => ha _) (fun j => hb _) (fun k => hM _)

end Cert.Clifford

end
-- ==== Proof.KernelValue.lean ====
/-
  From what each grid point stores to the whole result array.

  The grid has 64 points; point `t` works on rows `65536 t, …, 65536 t + 65535` of the two factor arrays and of
  the result, and every point sees the whole structure table, which the program reshapes from 64 × 8 to
  8 × 8 × 8 before the grid starts (entry `(p, j, c)` of the reshaped table is entry `(8 p + j, c)` of the
  argument).  So row `r` of what point `t` stores is row `65536 t + r` of `product` — the running total of
  ProductSpec.lean — of the three argument arrays; the 64 blocks tile the result (row `i` lies in block
  `i / 65536`), hence the result array ends holding `product` of the arguments.
-/
import proofs.«115070_j85452669321821_1_alg».proof.Proof.Gen.KernelIdeal.Value
import proofs.«115070_j85452669321821_1_alg».proof.Proof.BodyValue
import proofs.«115070_j85452669321821_1_alg».proof.Proof.ProductSpec
import Idealize.ShloMosaic.Lib.Pipeline.Value
import Idealize.ShloMosaic.Lib.StableHlo.Run
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx Cert.Clifford
open Idealize.ShloMosaic.Pipeline (Dat)

variable (m : (ℓ : Loc nD τ sig) → Buf (Elt Ideal) ℓ) (ρ : Dev nD → PrngReg)

/-! ## Where each window's block sits -/

/-- The block index of each window at each of the 64 grid points: the two factor windows and the result window
    move down the rows with the point, the table's window stays at the origin. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-! ## The three input blocks, read off the argument arrays -/

/-- Row `r` of the left factors' block at point `t` is row `65536 t + r` of the left factors. -/
theorem left_block_apply (c : Dev nD) (t : Fin cfg0.N) (r : Fin 65536) (p : Fin 8) (n : Fin 4194304)
    (hn : n.val = t.val * 65536 + r.val) :
    iblk m c 0 t (ix2 r p) = ((m ((c : Thread nD τ).loc main_arg0)) : Factors) (ix2 n p) := by
  obtain ⟨e0, e1, -⟩ := block_indices t
  have he : ((cfg0.win 0).blk t).view.emb (ix2 r p) = ix2 n p := funext fun a => Fin.ext (by
    match a with
    | ⟨0, _⟩ => show win0_0.index t (0 : Fin 2) * 65536 + 1 * r.val = n.val; rw [e0, hn]; omega
    | ⟨1, _⟩ => show win0_0.index t (1 : Fin 2) * 8 + 1 * p.val = p.val; rw [e1]; omega)
  unfold iblk
  rw [View.read_apply]
  show V m c main_arg0 (((cfg0.win 0).blk t).view.emb (ix2 r p)) = _
  rw [he, V_main_arg0]

/-- Row `r` of the right factors' block at point `t` is row `65536 t + r` of the right factors. -/
theorem right_block_apply (c : Dev nD) (t : Fin cfg0.N) (r : Fin 65536) (j : Fin 8) (n : Fin 4194304)
    (hn : n.val = t.val * 65536 + r.val) :
    iblk m c 1 t (ix2 r j) = ((m ((c : Thread nD τ).loc main_arg1)) : Factors) (ix2 n j) := by
  obtain ⟨-, -, e0, e1, -⟩ := block_indices t
  have he : ((cfg0.win 1).blk t).view.emb (ix2 r j) = ix2 n j := funext fun a => Fin.ext (by
    match a with
    | ⟨0, _⟩ => show win0_1.index t (0 : Fin 2) * 65536 + 1 * r.val = n.val; rw [e0, hn]; omega
    | ⟨1, _⟩ => show win0_1.index t (1 : Fin 2) * 8 + 1 * j.val = j.val; rw [e1]; omega)
  unfold iblk
  rw [View.read_apply]
  show V m c main_arg1 (((cfg0.win 1).blk t).view.emb (ix2 r j)) = _
  rw [he, V_main_arg1]

/-- When the grid starts, the 8 × 8 × 8 table is the 64 × 8 argument reshaped. -/
theorem table_at_entry (c : Dev nD) :
    (V m c main_v0 : S8x8x8.Idx → EReal) = shapeCast S8x8x8 ((m ((c : Thread nD τ).loc main_arg2)) : S64x8.Idx → EReal) shapeCasts_S64x8_S8x8x8 := by
  dsimp only [Gen.V, Gen.hostOps0]
  after_results
  rfl

/-- Entry `(p, j, q)` of the table's block, at any point, is entry `(8 p + j, q)` of the table argument. -/
theorem table_block_apply (c : Dev nD) (t : Fin cfg0.N) (p j q : Fin 8) :
    iblk m c 2 t (ix3 p j q) = ((m ((c : Thread nD τ).loc main_arg2)) : Clifford.Table) (ix2 (flat p j) q) := by
  obtain ⟨-, -, -, -, e0, e1, e2, -⟩ := block_indices t
  have he : ((cfg0.win 2).blk t).view.emb (ix3 p j q) = ix3 p j q := funext fun a => Fin.ext (by
    match a with
    | ⟨0, _⟩ => show win0_2.index t (0 : Fin 3) * 8 + 1 * p.val = p.val; rw [e0]; omega
    | ⟨1, _⟩ => show win0_2.index t (1 : Fin 3) * 8 + 1 * j.val = j.val; rw [e1]; omega
    | ⟨2, _⟩ => show win0_2.index t (2 : Fin 3) * 8 + 1 * q.val = q.val; rw [e2]; omega)
  unfold iblk
  rw [View.read_apply]
  show V m c main_v0 (((cfg0.win 2).blk t).view.emb (ix3 p j q)) = _
  rw [he]
  refine (congrFun (table_at_entry m c) (ix3 p j q)).trans ?_
  refine shapeCast_apply _ shapeCasts_S64x8_S8x8x8 (ix3 p j q) (ix2 (flat p j) q) ?_
  rewrite [Shape.rowMajor_val_two, Shape.rowMajor_val_three]
  show (8 * p.val + j.val) * 8 + q.val = (p.val * 8 + j.val) * 8 + q.val
  omega

/-! ## What point `t` writes back -/

/-- WHAT POINT `t` WRITES BACK is block `t` of `product` of the three argument arrays. -/
theorem flushed_eq (c : Dev nD) (t : Fin cfg0.N) :
    (dats m 0 c).flushed 3 t
      = ((cfg0.win 3).blk t).view.read (Elt Ideal) (product (m ((c : Thread nD τ).loc main_arg0)) (m ((c : Thread nD τ).loc main_arg1)) (m ((c : Thread nD τ).loc main_arg2))) := by
  rw [Cert.KernelIdeal.Value.flushed3]
  obtain ⟨-, -, -, -, -, -, -, e0, e1⟩ := block_indices t
  have ht : t.val < 64 := lt_of_lt_of_eq t.isLt (show cfg0.N = 64 from N_0)
  refine funext fun (y : S65536x8.Idx) => ?_
  obtain ⟨r, q, rfl⟩ : ∃ (r : Fin 65536) (q : Fin 8), y = ix2 r q := ⟨y 0, y 1, eq_ix2 y⟩
  have hr : r.val < 65536 := r.isLt
  obtain ⟨n, hn⟩ : ∃ n : Fin 4194304, n.val = t.val * 65536 + r.val := ⟨⟨t.val * 65536 + r.val, by omega⟩, rfl⟩
  have he : ((cfg0.win 3).blk t).view.emb (ix2 r q) = ix2 n q := funext fun a => Fin.ext (by
    match a with
    | ⟨0, _⟩ => show win0_3.index t (0 : Fin 2) * 65536 + 1 * r.val = n.val; rw [e0, hn]; omega
    | ⟨1, _⟩ => show win0_3.index t (1 : Fin 2) * 8 + 1 * q.val = q.val; rw [e1]; omega)
  show out0_3 (iblk m c 0 t) (iblk m c 1 t) (iblk m c 2 t) (ix2 r q)
    = product (m ((c : Thread nD τ).loc main_arg0)) (m ((c : Thread nD τ).loc main_arg1)) (m ((c : Thread nD τ).loc main_arg2)) (((cfg0.win 3).blk t).view.emb (ix2 r q))
  rw [he]
  refine (Body.stored_apply (iblk m c 0 t) (iblk m c 1 t) (iblk m c 2 t) r q).trans ?_
  have ea : (fun p : Fin 8 => iblk m c 0 t (ix2 r p)) = fun p => ((m ((c : Thread nD τ).loc main_arg0)) : Factors) (ix2 n p) :=
    funext fun p => left_block_apply m c t r p n hn
  have eb : (fun j : Fin 8 => iblk m c 1 t (ix2 r j)) = fun j => ((m ((c : Thread nD τ).loc main_arg1)) : Factors) (ix2 n j) :=
    funext fun j => right_block_apply m c t r j n hn
  have eM : (fun p j : Fin 8 => iblk m c 2 t (ix3 p j q)) = fun p j => ((m ((c : Thread nD τ).loc main_arg2)) : Clifford.Table) (ix2 (flat p j) q) :=
    funext fun p => funext fun j => table_block_apply m c t p j q
  rw [ea, eb, eM]
  rfl

/-! ## The blocks tile the result -/

/-- An index of the result is in point `t`'s block iff each coordinate is in the block's range on its axis. -/
theorem mem_block (t : Fin cfg0.N) (i : S4194304x8.Idx) :
    i ∈ ((cfg0.win 3).blk t).view.set ↔ ∀ a : Fin 2, win0_3.index t a * S65536x8.size a ≤ (i a).val ∧ (i a).val < win0_3.index t a * S65536x8.size a + S65536x8.size a := by
  show i ∈ ((View.whole main_v1).slice (win0_3.rect t)).set ↔ _
  rw [View.set_slice_whole, Rect.mem_set_unit]
  exact Iff.rfl

/-- Row `i` of the result lies in the block of point `i / 65536`, which writes back. -/
theorem covered (i : S4194304x8.Idx) :
    ∃ t : Fin cfg0.N, (cfg0.win 3).flush t = true ∧ i ∈ ((cfg0.win 3).blk t).view.set := by
  have hi0 : (i 0).val < 4194304 := (i 0).isLt
  have hi1 : (i 1).val < 8 := (i 1).isLt
  have hN : cfg0.N = 64 := N_0
  obtain ⟨t, ht⟩ : ∃ t : Fin cfg0.N, t.val = (i 0).val / 65536 := ⟨⟨(i 0).val / 65536, by rw [hN]; omega⟩, rfl⟩
  obtain ⟨-, -, -, -, -, -, -, e0, e1⟩ := block_indices t
  refine ⟨t, flush0_3 t, ?_⟩
  rw [mem_block]
  intro a
  match a with
  | ⟨0, _⟩ =>
    show win0_3.index t (0 : Fin 2) * 65536 ≤ (i 0).val ∧ (i 0).val < win0_3.index t (0 : Fin 2) * 65536 + 65536
    rw [e0, ht]; omega
  | ⟨1, _⟩ =>
    show win0_3.index t (1 : Fin 2) * 8 ≤ (i 1).val ∧ (i 1).val < win0_3.index t (1 : Fin 2) * 8 + 8
    rw [e1]; omega

/-- THE RESULT ARRAY after the run is `product` of the three argument arrays. -/
theorem final (c : Dev nD) :
    (dats m 0 c).arrAt 3 cfg0.N = product (m ((c : Thread nD τ).loc main_arg0)) (m ((c : Thread nD τ).loc main_arg1)) (m ((c : Thread nD τ).loc main_arg2)) :=
  (dats m 0 c).arrAt_eq_of_cover 3 (product (m ((c : Thread nD τ).loc main_arg0)) (m ((c : Thread nD τ).loc main_arg1)) (m ((c : Thread nD τ).loc main_arg2))) (fun t _ => flushed_eq m c t) covered

/-! ## The run, read -/

/-- Every weakly fair execution of the idealized kernel ends with the result array at `product` of the argument
    arrays as launched, and the arguments unchanged. -/
theorem run : θ_run defs (onTc (τ := τ) (main (F := Ideal))) ⟨m, fun _ => 0, ρ⟩ fun r => ∀ c : Dev nD,
      r.2.mem ((c : Thread nD τ).loc main_v1) = product (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Hand

end
-- ==== Proof.ReferenceValue.lean ====
/-
  The reference, entry by entry.

  The reference spreads the left factors along a new last axis and the right factors along a new middle axis,
  multiplies (entry `(n, p, j)` of the product is `a (n, p) * b (n, j)`), flattens the last two axes row-major
  (position `8 p + j`), and contracts the flattened axis with the 64 × 8 table.  So its result at `(n, c)` is
      Σ_{k < 64} a (n, k / 8) * b (n, k % 8) * table (k, c),
  the `contraction` of ProductSpec.lean: the generated stage-by-stage reading of the program gives it once the composed
  index maps are recognised as "row of `k`" and "column of `k`".
-/
import proofs.«115070_j85452669321821_1_alg».proof.Proof.Gen.ReferenceIdeal.Read
import proofs.«115070_j85452669321821_1_alg».proof.Proof.ProductSpec

noncomputable section

namespace Cert.ReferenceIdeal.Hand

open Cert.ReferenceIdeal Cert.ReferenceIdeal.Gen Cert.ReferenceIdeal.Read Idealize.ShloMosaic Idealize.ShloMosaic.ValueIdx
open Cert.Clifford

/-- The reference's last stage, as a function of the three argument arrays, is the contraction at every index. -/
theorem result_eq (a b : (⟨S4194304x8, .f32⟩ : BufTy).Contents (Elt Ideal)) (M : (⟨S64x8, .f32⟩ : BufTy).Contents (Elt Ideal)) :
    val_main_v6 (F := Ideal) a b M = fun i => contraction a b M (i 0) (i 1) := by
  funext i
  obtain ⟨n, c, rfl⟩ : ∃ (n : Fin 4194304) (c : Fin 8), i = ix2 n c := ⟨i 0, i 1, eq_ix2 i⟩
  rw [val_main_v6_apply]
  show _ = ∑ k : Fin 64, _
  refine Finset.sum_congr rfl fun k _ => ?_
  have hk : k.val < 64 := k.isLt
  have hn : n.val < 4194304 := n.isLt
  -- the left factor is read at (n, row of k), the right factor at (n, column of k), the table at (k, c)
  have ea : idx_main_v0 (idx_main_v2 (idx_main_v5 (lidx_main_v6 (ix2 n c) k))) = ix2 n (rowOf k) :=
    funext fun d => Fin.ext (by
      match d with
      | ⟨0, _⟩ => show (n.val * 64 + k.val) / 64 = n.val; omega
      | ⟨1, _⟩ => show (n.val * 64 + k.val) / 8 % 8 = k.val / 8; omega)
  have eb : idx_main_v1 (idx_main_v3 (idx_main_v5 (lidx_main_v6 (ix2 n c) k))) = ix2 n (colOf k) :=
    funext fun d => Fin.ext (by
      match d with
      | ⟨0, _⟩ => show (n.val * 64 + k.val) / 64 = n.val; omega
      | ⟨1, _⟩ => show (n.val * 64 + k.val) % 8 = k.val % 8; omega)
  have eM : ridx_main_v6 (ix2 n c) k = ix2 k c :=
    funext fun d => Fin.ext (by
      match d with
      | ⟨0, _⟩ => rfl
      | ⟨1, _⟩ => rfl)
  rw [val_main_v5_apply, val_main_v4_apply, val_main_v2_apply, val_main_v0_apply, val_main_v3_apply, val_main_v1_apply,
    ea, eb, eM]
  rfl

end Cert.ReferenceIdeal.Hand

end
-- ==== Proof.Finite.lean ====
/-
  From the precondition to real numbers.

  The precondition says that, of each of the three argument arrays, every entry's absolute value is below the
  word that denotes +∞, all of it folded into one bit by `and`.  An extended real whose absolute value is below
  +∞ is neither +∞ nor −∞, so it is a real number: the form in which the algebraic law of CliffordLaw.lean
  takes its entries.
-/
import proofs.«115070_j85452669321821_1_alg».proof.Pre_finite_inputs
import Idealize.ShloMosaic.Lib.ReduceAll
import Idealize.ShloMosaic.Lib.ValueIdx
import Idealize.ShloMosaic.PureOps.Ideal.Laws

noncomputable section

namespace Cert.Pre_finite_inputs.Hand

open Cert.Pre_finite_inputs Idealize.ShloMosaic

/-- A shape of no axes has one index. -/
instance : Subsingleton S_.Idx := ⟨fun a b => funext fun d => d.elim0⟩

/-- The f32 word `0x7F800000` denotes +∞. -/
theorem inf_word : Ideal.ofBits .f32 0x7F800000#32 = (⊤ : EReal) := by simp [Ideal.ofBits, Ideal.ieee]

/-- An extended real whose absolute value compares below +∞ is a real number. -/
theorem real_of_abs_lt_inf (x : EReal)
    (e : Ideal.cmp .olt (max x (-x)) (Ideal.ofBits .f32 0x7F800000#32) = 1#1) : ∃ r : ℝ, x = r := by
  rw [inf_word] at e
  unfold Ideal.cmp at e
  induction x using EReal.rec with
  | bot => simp at e
  | coe r => exact ⟨r, rfl⟩
  | top => simp at e

variable [Facts]

/-- Under the precondition every entry of each of the three argument arrays is a real number. -/
theorem entries_real (a b : FVec Ideal S4194304x8 .f32) (M : FVec Ideal S64x8 .f32)
    (h : fn (F := Ideal) a b M = fun _ => 1#1) :
    (∀ i, ∃ r : ℝ, a i = r) ∧ (∀ i, ∃ r : ℝ, b i = r) ∧ (∀ i, ∃ r : ℝ, M i = r) := by
  have h0 := congrFun h ValueIdx.ix0
  dsimp only [fn] at h0
  obtain ⟨hab, hM⟩ := IntOp.andi_eq_one.mp h0
  obtain ⟨ha, hb⟩ := IntOp.andi_eq_one.mp hab
  refine ⟨fun i => ?_, fun i => ?_, fun i => ?_⟩
  · exact real_of_abs_lt_inf (a i) (Host.reduce_andi_all _ _ _ _ _ ha i)
  · exact real_of_abs_lt_inf (b i) (Host.reduce_andi_all _ _ _ _ _ hb i)
  · exact real_of_abs_lt_inf (M i) (Host.reduce_andi_all _ _ _ _ _ hM i)

end Cert.Pre_finite_inputs.Hand

end
-- ==== Proof.lean ====
/-
  The Clifford geometric product of Cl(3,0), batched over 4194304 pairs of multivectors: the kernel against its
  jnp reference, on the extended reals.

  Both programs take the left factors `a` and the right factors `b` (eight components per multivector) and a
  64 × 8 structure table `M`, whose row `8 p + j` says how the product of component `p` of `a` with component `j`
  of `b` spreads over the eight components of the result.

    * The reference forms the sixty-four products `a p * b j` of each pair of multivectors, flattens them
      row-major and multiplies the resulting 4194304 × 64 matrix with the table:
          out (n, c) = Σ_{k < 64} a (n, k / 8) * b (n, k % 8) * M (k, c).
    * The kernel reshapes the table to 8 × 8 × 8, walks the rows in 64 blocks of 65536, and in each block keeps
      a running total from zero to which it adds, for `p = 0, …, 7`, column `p` of `a` times the matrix product
      of `b` with row block `p` of the table:
          out (n, c) = ((0 + a (n, 0) * Σ_j b (n, j) * M (j, c)) + … ) + a (n, 7) * Σ_j b (n, j) * M (56 + j, c).

  The two are the same double sum once `a (n, p)` is moved inside the inner sum.  That is distributivity, which
  on the extended reals holds for real numbers but not at infinities; the precondition (every entry of the three
  arrays finite) is what supplies it.

  The modules:  CliffordLaw (the law, in ℝ then coerced) · ProductSpec (both arrangements as functions of the
  argument arrays, and their equality for real entries) · BodyValue (what one grid point stores, entry by
  entry) · KernelValue (the 64 blocks tile the result: the kernel's run ends at the running-total function) ·
  ReferenceValue (the reference's run ends at the sixty-four-term sum) · Finite (the precondition makes every
  entry a real number).  The three frames are the generated ones; the kernel's idealization rewrote nothing.
-/
import proofs.«115070_j85452669321821_1_alg».proof.Defs
import proofs.«115070_j85452669321821_1_alg».proof.Proof.Gen.Kernel
import proofs.«115070_j85452669321821_1_alg».proof.Proof.Gen.Kernel.Skeleton
import proofs.«115070_j85452669321821_1_alg».proof.Proof.Gen.Kernel.Launch
import proofs.«115070_j85452669321821_1_alg».proof.Proof.Gen.Kernel.Points
import proofs.«115070_j85452669321821_1_alg».proof.Proof.Gen.Kernel.Frame
import proofs.«115070_j85452669321821_1_alg».proof.Proof.Gen.KernelIdeal
import proofs.«115070_j85452669321821_1_alg».proof.Proof.Gen.KernelIdeal.Skeleton
import proofs.«115070_j85452669321821_1_alg».proof.Proof.Gen.KernelIdeal.Launch
import proofs.«115070_j85452669321821_1_alg».proof.Proof.Gen.KernelIdeal.Points
import proofs.«115070_j85452669321821_1_alg».proof.Proof.Gen.KernelIdeal.Frame
import proofs.«115070_j85452669321821_1_alg».proof.Proof.Gen.ReferenceIdeal
import proofs.«115070_j85452669321821_1_alg».proof.Proof.Gen.Pre_finite_inputs
import proofs.«115070_j85452669321821_1_alg».proof.Proof.Gen.KernelIdeal.Value
import proofs.«115070_j85452669321821_1_alg».proof.Proof.Gen.ReferenceIdeal.Run
import proofs.«115070_j85452669321821_1_alg».proof.Proof.Gen.ReferenceIdeal.Read
import proofs.«115070_j85452669321821_1_alg».proof.Proof.KernelValue
import proofs.«115070_j85452669321821_1_alg».proof.Proof.ReferenceValue
import proofs.«115070_j85452669321821_1_alg».proof.Proof.Finite
import Idealize.ShloMosaic.Adequacy
import Idealize.ShloMosaic.Init

noncomputable section

namespace Cert.Proof

open Idealize.ShloMosaic Idealize.ShloMosaic.TcCoe Idealize.SL.Sem Cert.Clifford

/-- The kernel as printed runs, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the three arguments, the idealized kernel ends with the result array at the
    running-total arrangement of the product and the idealized reference at the sixty-four-term arrangement; the
    entries being real numbers under the precondition, the two arrangements are one array. -/
theorem algebraic : Cert.algebraic_KernelIdeal_ReferenceIdeal := by
  intro m ρ m' ρ' hpre hagree
  refine ⟨fun c => product (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨ha, hb, hM⟩ := Cert.Pre_finite_inputs.Hand.entries_real _ _ _ (hpre c)
  rw [(hagree c).1, (hagree c).2.1, (hagree c).2.2, Cert.ReferenceIdeal.Read.val_main_v6_eq,
    Cert.ReferenceIdeal.Hand.result_eq]
  funext i
  exact (total_eq_contraction _ _ _ ha hb hM (i 0) (i 1)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
